-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 31
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S1x128, .f32⟩
  | .hbm, ⟨30, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_cst : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One mean-aggregating graph layer as a function of its arrays, on the extended reals.

  From the per-node sums of neighbour features `S` (n rows of 128), the per-node neighbour counts `C`, the node
  features `X`, two 128 × 128 weight matrices `Wl`, `Wr` and a bias `B`, node p's row before normalisation is
      o[p, q] = Σ_k (S[p, k] / max(C[p], 1)) · Wl[q, k]  +  Σ_k X[p, k] · Wr[q, k]  +  B[q],
  and the layer returns that row scaled to unit Euclidean length, the length floored at ε, then clamped at zero:
      out[p, q] = max(o[p, q] / max(√(Σ_q' o[p, q']²), ε), 0).
  The quotient is the total one of the extended reals. Row p of the result depends on row p of `S` and `X` and on
  `C[p]` only, which is what lets a block of rows be computed from a block of rows.
-/
import Idealize.ShloMosaic.PureOps.Ideal
import Idealize.ShloMosaic.Lib.ValueIdx

noncomputable section

open scoped BigOperators

namespace Cert.SageLayer

open Idealize.ShloMosaic Idealize.ShloMosaic.ValueIdx

/-- The f32 word of 1, as the extended real it denotes. -/
abbrev one : EReal := Ideal.ofBits .f32 0x3F800000#32
/-- The f32 word of the length floor ε (the f32 nearest 10⁻¹²), as the extended real it denotes. -/
abbrev eps : EReal := Ideal.ofBits .f32 0x2B8CBCCC#32
/-- The f32 word of 0, as the extended real it denotes. -/
abbrev zero : EReal := Ideal.ofBits .f32 0x00000000#32

variable {n n' : Nat}

/-- Row p before normalisation: the mean of the neighbours through `Wl`, the node itself through `Wr`, the bias. -/
def preact (S X : (⟨2, ![n, 128]⟩ : Shape).Idx → EReal) (C : (⟨1, ![n]⟩ : Shape).Idx → EReal)
    (Wl Wr : (⟨2, ![128, 128]⟩ : Shape).Idx → EReal) (B : (⟨1, ![128]⟩ : Shape).Idx → EReal)
    (p : Fin n) (q : Fin 128) : EReal :=
  (∑ k : Fin 128, Ideal.div (S (ix2 p k)) (max (C (ix1 p)) one) * Wl (ix2 q k))
    + (∑ k : Fin 128, X (ix2 p k) * Wr (ix2 q k)) + B (ix1 q)

/-- The layer: the row over its floored Euclidean length, clamped at zero. -/
def out (S X : (⟨2, ![n, 128]⟩ : Shape).Idx → EReal) (C : (⟨1, ![n]⟩ : Shape).Idx → EReal)
    (Wl Wr : (⟨2, ![128, 128]⟩ : Shape).Idx → EReal) (B : (⟨1, ![128]⟩ : Shape).Idx → EReal)
    (p : Fin n) (q : Fin 128) : EReal :=
  max (Ideal.div (preact S X C Wl Wr B p q)
    (max (Ideal.sqrt (∑ q' : Fin 128, preact S X C Wl Wr B p q' * preact S X C Wl Wr B p q')) eps)) zero

/-- The layer as an array over all nodes. -/
def outArr (S X : (⟨2, ![n, 128]⟩ : Shape).Idx → EReal) (C : (⟨1, ![n]⟩ : Shape).Idx → EReal)
    (Wl Wr : (⟨2, ![128, 128]⟩ : Shape).Idx → EReal) (B : (⟨1, ![128]⟩ : Shape).Idx → EReal) :
    (⟨2, ![n, 128]⟩ : Shape).Idx → EReal :=
  fun i => out S X C Wl Wr B (i 0) (i 1)

theorem outArr_ix2 (S X : (⟨2, ![n, 128]⟩ : Shape).Idx → EReal) (C : (⟨1, ![n]⟩ : Shape).Idx → EReal)
    (Wl Wr : (⟨2, ![128, 128]⟩ : Shape).Idx → EReal) (B : (⟨1, ![128]⟩ : Shape).Idx → EReal) (p : Fin n) (q : Fin 128) :
    outArr S X C Wl Wr B (ix2 p q) = out S X C Wl Wr B p q := rfl

/-- Row p of one set of node arrays and row p' of another agree: so do the two rows before normalisation. -/
theorem preact_congr (S X : (⟨2, ![n, 128]⟩ : Shape).Idx → EReal) (C : (⟨1, ![n]⟩ : Shape).Idx → EReal)
    (S' X' : (⟨2, ![n', 128]⟩ : Shape).Idx → EReal) (C' : (⟨1, ![n']⟩ : Shape).Idx → EReal)
    (Wl Wr : (⟨2, ![128, 128]⟩ : Shape).Idx → EReal) (B : (⟨1, ![128]⟩ : Shape).Idx → EReal)
    (p : Fin n) (p' : Fin n') (hS : ∀ k : Fin 128, S (ix2 p k) = S' (ix2 p' k))
    (hX : ∀ k : Fin 128, X (ix2 p k) = X' (ix2 p' k)) (hC : C (ix1 p) = C' (ix1 p')) (q : Fin 128) :
    preact S X C Wl Wr B p q = preact S' X' C' Wl Wr B p' q := by
  unfold preact
  rw [hC]
  refine congrArg₂ (· + ·) (congrArg₂ (· + ·) ?_ ?_) rfl
  · exact Finset.sum_congr rfl fun k _ => by rw [hS k]
  · exact Finset.sum_congr rfl fun k _ => by rw [hX k]

/-- … and so do the two rows of the result. -/
theorem out_congr (S X : (⟨2, ![n, 128]⟩ : Shape).Idx → EReal) (C : (⟨1, ![n]⟩ : Shape).Idx → EReal)
    (S' X' : (⟨2, ![n', 128]⟩ : Shape).Idx → EReal) (C' : (⟨1, ![n']⟩ : Shape).Idx → EReal)
    (Wl Wr : (⟨2, ![128, 128]⟩ : Shape).Idx → EReal) (B : (⟨1, ![128]⟩ : Shape).Idx → EReal)
    (p : Fin n) (p' : Fin n') (hS : ∀ k : Fin 128, S (ix2 p k) = S' (ix2 p' k))
    (hX : ∀ k : Fin 128, X (ix2 p k) = X' (ix2 p' k)) (hC : C (ix1 p) = C' (ix1 p')) (q : Fin 128) :
    out S X C Wl Wr B p q = out S' X' C' Wl Wr B p' q := by
  have h := preact_congr S X C S' X' C' Wl Wr B p p' hS hX hC
  unfold out
  rw [h q]
  refine congrArg (fun d => max (Ideal.div _ (max (Ideal.sqrt d) eps)) zero) ?_
  exact Finset.sum_congr rfl fun q' _ => by rw [h q']

end Cert.SageLayer

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.Payload.lean ====
/-
  The kernel body on one block of 4000 rows, read at an entry (p, q): it is the layer of the block's arrays.

  The body divides the block of neighbour sums by the floored counts (a column broadcast along the row), multiplies the
  result and the block of node features by the two weight matrices — each product contracts the second axis of both
  operands, so entry (p, q) is Σ_k L[p, k] · R[q, k] —, adds the bias row, sums the squares along each row, takes the
  root, floors it at ε, divides and clamps at zero. Rounding to bf16 on the way into the products is the identity on
  the extended reals.
-/
import proofs.«103948_j23390391894413_2_alg».proof.Proof.Gen.KernelIdeal.Skeleton
import proofs.«103948_j23390391894413_2_alg».proof.Proof.Spec
import proofs.«103948_j23390391894413_2_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowBlock

open Cert.KernelIdeal Cert.KernelIdeal.Gen Idealize.ShloMosaic Idealize.ShloMosaic.ValueIdx
open Cert.SageLayer Cert.Lib.UnitAxis

/-! ## The two non-pointwise operations at an index -/

/-- In a product contracting the second axis of both operands, the left operand is read in the output's row … -/
theorem lhs_row (i : S4000x128.Idx) (k : dot_S4000x128_S128x128_S4000x128_1_1_0_0_n_n.contr.Idx) :
    (dot_S4000x128_S128x128_S4000x128_1_1_0_0_n_n.lhsIdx i k 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl

/-- … and the right operand in the row named by the output's column. -/
theorem rhs_row (i : S4000x128.Idx) (k : dot_S4000x128_S128x128_S4000x128_1_1_0_0_n_n.contr.Idx) :
    (dot_S4000x128_S128x128_S4000x128_1_1_0_0_n_n.rhsIdx i k 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl

/-- A product contracting the second axis of both operands, into a zero accumulator: entry (p, q) is Σ_k L[p,k]·R[q,k]. -/
theorem matmul_rows_apply (L : FVec Ideal S4000x128 .bf16) (R : FVec Ideal S128x128 .bf16) (p : Fin 4000) (q : Fin 128) :
    matmul dot_S4000x128_S128x128_S4000x128_1_1_0_0_n_n none L R (constant S4000x128 .f32 0x00000000#32) (ix2 p q)
      = ∑ k : Fin 128, L (ix2 p k) * R (ix2 q k) := by
  refine (Ideal.matmul_constant_zero_apply dot_S4000x128_S128x128_S4000x128_1_1_0_0_n_n none L R (ix2 p q)).trans ?_
  rw [← Equiv.sum_comp (contrEquiv1 dot_S4000x128_S128x128_S4000x128_1_1_0_0_n_n 128 rfl rfl).symm]
  refine Finset.sum_congr rfl fun k _ => ?_
  have hk := contrEquiv1_symm_val dot_S4000x128_S128x128_S4000x128_1_1_0_0_n_n 128 rfl rfl k
  have el : dot_S4000x128_S128x128_S4000x128_1_1_0_0_n_n.lhsIdx (ix2 p q) ((contrEquiv1 dot_S4000x128_S128x128_S4000x128_1_1_0_0_n_n 128 rfl rfl).symm k) = ix2 p k := funext fun a => Fin.ext (by
    match a with
    | ⟨0, _⟩ => exact lhs_row _ _
    | ⟨1, _⟩ => exact (dot_S4000x128_S128x128_S4000x128_1_1_0_0_n_n.lhsIdx_val_of_single (cl := 1) rfl (ix2 p q) _).trans hk)
  have er : dot_S4000x128_S128x128_S4000x128_1_1_0_0_n_n.rhsIdx (ix2 p q) ((contrEquiv1 dot_S4000x128_S128x128_S4000x128_1_1_0_0_n_n 128 rfl rfl).symm k) = ix2 q k := funext fun a => Fin.ext (by
    match a with
    | ⟨0, _⟩ => exact rhs_row _ _
    | ⟨1, _⟩ => exact (dot_S4000x128_S128x128_S4000x128_1_1_0_0_n_n.rhsIdx_val_of_single (cr := 1) rfl (ix2 p q) _).trans hk)
  rw [el, er]

/-- The sum along each row, read at row p: Σ_k of the row's entries. -/
theorem rowsum_apply (src : FVec Ideal S4000x128 .f32) (h : S4000x128.Reduces [1] S4000)
    (hacc : (0x00000000#32 : BitVec 32) = 0x00000000#32) (p : Fin 4000) :
    multiReduction .add [1] S4000 src 0x00000000#32 h (.inl rfl) hacc (ix1 p) = ∑ k : Fin 128, src (ix2 p k) := by
  refine (Ideal.multiReduction_add_single src 0x00000000#32 h (.inl rfl) hacc (ix1 p)).trans ?_
  refine Finset.sum_congr rfl fun k _ => congrArg src ?_
  exact funext fun a => Fin.ext (by match a with | ⟨0, _⟩ => rfl | ⟨1, _⟩ => rfl)

/-! ## The body in two stages -/

/-- The rows before normalisation, as the body forms them from its six loaded blocks. -/
def lin (v0 : Vec Ideal S4000x128 .f32) (v2 : Vec Ideal S4000x1 .f32) (v9 : Vec Ideal S4000x128 .f32)
    (v11 v13 : Vec Ideal S128x128 .f32) (v15 : Vec Ideal S1x128 .f32) : FVec Ideal S4000x128 .f32 :=
  addf (addf
    (matmul dot_S4000x128_S128x128_S4000x128_1_1_0_0_n_n none
      (truncf .bf16 (divf (shapeCast S4000x128 v0 shapeCasts_S4000x128_S4000x128)
        (broadcastTo S4000x128 (maximumf (shapeCast S4000x1 v2 shapeCasts_S4000x1_S4000x1)
          (broadcast S4000x1 (Scalar.ofBits (F := Ideal) .f32 0x3F800000#32))) broadcasts_S4000x1_S4000x128)) bitsLt_bf16_f32)
      (truncf .bf16 v11 bitsLt_bf16_f32) (constant S4000x128 .f32 0x00000000#32))
    (matmul dot_S4000x128_S128x128_S4000x128_1_1_0_0_n_n none (truncf .bf16 v9 bitsLt_bf16_f32)
      (truncf .bf16 v13 bitsLt_bf16_f32) (constant S4000x128 .f32 0x00000000#32)))
    (broadcastTo S4000x128 (shapeCast S1x128 v15 shapeCasts_S1x128_S1x128) broadcasts_S1x128_S4000x128)

/-- Each row over its floored Euclidean length, clamped at zero, as the body forms it. -/
def unit (o : FVec Ideal S4000x128 .f32) : FVec Ideal S4000x128 .f32 :=
  maximumf (divf o (broadcastTo S4000x128
      (maximumf (sqrt (shapeCast S4000x1
          (multiReduction .add [1] S4000 (mulf o o) 0x00000000#32 reduces_S4000x128_S4000 (.inl rfl) rfl)
          shapeCasts_S4000_S4000x1))
        (broadcast S4000x1 (Scalar.ofBits (F := Ideal) .f32 0x2B8CBCCC#32))) broadcasts_S4000x1_S4000x128))
    (broadcast S4000x128 (Scalar.ofBits (F := Ideal) .f32 0x00000000#32))

/-- The body's stored value is the second stage of the first. -/
theorem pay_eq (v0 : Vec Ideal S4000x128 .f32) (v2 : Vec Ideal S4000x1 .f32) (v9 : Vec Ideal S4000x128 .f32)
    (v11 v13 : Vec Ideal S128x128 .f32) (v15 : Vec Ideal S1x128 .f32) :
    k0_pay1 v0 v2 v9 v11 v13 v15 = unit (lin v0 v2 v9 v11 v13 v15) := rfl

/-- The count block as a vector over the block's rows, and the bias block as a vector over the columns. -/
abbrev col (v2 : Vec Ideal S4000x1 .f32) : (⟨1, ![4000]⟩ : Shape).Idx → EReal := fun i => v2 (ix2 (i 0) (0 : Fin 1))
abbrev row (v15 : Vec Ideal S1x128 .f32) : (⟨1, ![128]⟩ : Shape).Idx → EReal := fun i => v15 (ix2 (0 : Fin 1) (i 0))

/-- The first stage at (p, q) is the layer's row before normalisation. -/
theorem lin_apply (v0 : Vec Ideal S4000x128 .f32) (v2 : Vec Ideal S4000x1 .f32) (v9 : Vec Ideal S4000x128 .f32)
    (v11 v13 : Vec Ideal S128x128 .f32) (v15 : Vec Ideal S1x128 .f32) (p : Fin 4000) (q : Fin 128) :
    lin v0 v2 v9 v11 v13 v15 (ix2 p q) = preact (n := 4000) v0 v9 (col v2) v11 v13 (row v15) p q := by
  unfold lin preact
  rw [addf_apply, addf_apply, matmul_rows_apply, matmul_rows_apply, broadcastTo_1b_ab_apply]
  refine congrArg₂ (· + ·) (congrArg₂ (· + ·) (Finset.sum_congr rfl fun k _ => ?_) (Finset.sum_congr rfl fun k _ => ?_)) ?_
  · rw [truncf_apply, truncf_apply, divf_apply, broadcastTo_a1_ab_apply, maximumf_apply, broadcast_apply,
      shapeCast_self, shapeCast_self]
    rfl
  · rw [truncf_apply, truncf_apply]
  · exact congrFun (shapeCast_self v15 _) _

/-- The second stage at (p, q), for rows given entry by entry. -/
theorem unit_apply (o : FVec Ideal S4000x128 .f32) (p : Fin 4000) (q : Fin 128) :
    unit o (ix2 p q) = max (Ideal.div (o (ix2 p q))
      (max (Ideal.sqrt (∑ q' : Fin 128, o (ix2 p q') * o (ix2 p q'))) eps)) zero := by
  unfold unit
  rw [maximumf_apply, divf_apply, broadcastTo_a1_ab_apply, maximumf_apply, broadcast_apply, broadcast_apply]
  show max (Ideal.div _ (max (Ideal.sqrt (shapeCast S4000x1 _ shapeCasts_S4000_S4000x1 (ix2 p (0 : Fin 1)))) _)) _ = _
  rw [shapeCast_a_a1_apply, rowsum_apply]
  rfl

/-- The body's stored value at (p, q) is the layer of the block's arrays at (p, q). -/
theorem pay_apply (v0 : Vec Ideal S4000x128 .f32) (v2 : Vec Ideal S4000x1 .f32) (v9 : Vec Ideal S4000x128 .f32)
    (v11 v13 : Vec Ideal S128x128 .f32) (v15 : Vec Ideal S1x128 .f32) (p : Fin 4000) (q : Fin 128) :
    k0_pay1 v0 v2 v9 v11 v13 v15 (ix2 p q) = out (n := 4000) v0 v9 (col v2) v11 v13 (row v15) p q := by
  rw [pay_eq, unit_apply]
  unfold out
  simp only [lin_apply]

end Cert.KernelIdeal.RowBlock

end
-- ==== Proof.BlockReads.lean ====
/-
  Where each block of a grid point sits in its array.

  The grid has 25 points. At point t the blocks of the summed neighbour features, of the node features and of the count
  column are rows 4000·t … 4000·t + 3999 of their arrays; the blocks of the two weight matrices and of the bias row are
  the whole arrays.
-/
import proofs.«103948_j23390391894413_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem origin : (![0, 0] : Fin 2 → Nat) = fun _ => 0 := funext fun a => by fin_cases a <;> rfl

/-- The printed index maps, decided over the 25 points: the three node arrays and the result move one block of rows
    per point, the weights and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 25 := Nat.lt_of_lt_of_eq t.isLt N_0

/-- Window 0's block at point t is its array read through the block's rectangle. -/
theorem iblk0_eq (c : Dev nD) (t : Fin cfg0.N) :
    iblk m c 0 t = ((cfg0.win 0).blk t).view.read (Elt Ideal) (V m c main_v13) := rfl

/-- Any array read through that rectangle, at an entry: the array at the entry's place in it. -/
theorem read_blk0 (c : Dev nD) (t : Fin cfg0.N) (A : Buf (Elt Ideal) ((c : Thread nD τ).loc main_v13)) (y : S4000x128.Idx) :
    ((cfg0.win 0).blk t).view.read (Elt Ideal) A y = A (((cfg0.win 0).blk t).view.emb y) := rfl

/-- Row p of the block of summed neighbour features at point t is row 4000·t + p of the array. -/
theorem summed_blk (c : Dev nD) (t : Fin cfg0.N) (p : Fin 4000) (k : Fin 128) (hb : t.val * 4000 + p.val < 100000) :
    (iblk m c 0 t : Vec Ideal S4000x128 .f32) (ix2 p k)
      = (V m c main_v13 : S100000x128.Idx → EReal) (ix2 (⟨t.val * 4000 + p.val, hb⟩ : Fin 100000) k) := by
  obtain ⟨e0, e1, -⟩ := idx_facts t
  have hidx : (((cfg0.win 0).blk t).view.emb (ix2 p k) : S100000x128.Idx) = ix2 (⟨t.val * 4000 + p.val, hb⟩ : Fin 100000) k :=
    funext fun a => Fin.ext (by
      match a with
      | ⟨0, _⟩ => show win0_0.index t (0 : Fin 2) * 4000 + 1 * p.val = t.val * 4000 + p.val; rw [e0]; omega
      | ⟨1, _⟩ => show win0_0.index t (1 : Fin 2) * 128 + 1 * k.val = k.val; rw [e1]; omega)
  refine (congrFun (iblk0_eq m c t) (ix2 p k)).trans ?_
  refine (read_blk0 c t (V m c main_v13) (ix2 p k)).trans ?_
  rw [hidx]

/-- Window 1's block at point t is its array read through the block's rectangle. -/
theorem iblk1_eq (c : Dev nD) (t : Fin cfg0.N) :
    iblk m c 1 t = ((cfg0.win 1).blk t).view.read (Elt Ideal) (V m c main_arg0) := rfl

/-- Any array read through that rectangle, at an entry: the array at the entry's place in it. -/
theorem read_blk1 (c : Dev nD) (t : Fin cfg0.N) (A : Buf (Elt Ideal) ((c : Thread nD τ).loc main_arg0)) (y : S4000x128.Idx) :
    ((cfg0.win 1).blk t).view.read (Elt Ideal) A y = A (((cfg0.win 1).blk t).view.emb y) := rfl

/-- Row p of the block of node features at point t is row 4000·t + p of the array. -/
theorem feat_blk (c : Dev nD) (t : Fin cfg0.N) (p : Fin 4000) (k : Fin 128) (hb : t.val * 4000 + p.val < 100000) :
    (iblk m c 1 t : Vec Ideal S4000x128 .f32) (ix2 p k)
      = (V m c main_arg0 : S100000x128.Idx → EReal) (ix2 (⟨t.val * 4000 + p.val, hb⟩ : Fin 100000) k) := by
  obtain ⟨-, -, e0, e1, -⟩ := idx_facts t
  have hidx : (((cfg0.win 1).blk t).view.emb (ix2 p k) : S100000x128.Idx) = ix2 (⟨t.val * 4000 + p.val, hb⟩ : Fin 100000) k :=
    funext fun a => Fin.ext (by
      match a with
      | ⟨0, _⟩ => show win0_1.index t (0 : Fin 2) * 4000 + 1 * p.val = t.val * 4000 + p.val; rw [e0]; omega
      | ⟨1, _⟩ => show win0_1.index t (1 : Fin 2) * 128 + 1 * k.val = k.val; rw [e1]; omega)
  refine (congrFun (iblk1_eq m c t) (ix2 p k)).trans ?_
  refine (read_blk1 c t (V m c main_arg0) (ix2 p k)).trans ?_
  rw [hidx]

/-- Window 2's block at point t is its array read through the block's rectangle. -/
theorem iblk2_eq (c : Dev nD) (t : Fin cfg0.N) :
    iblk m c 2 t = ((cfg0.win 2).blk t).view.read (Elt Ideal) (V m c main_v18) := rfl

/-- Any array read through that rectangle, at an entry: the array at the entry's place in it. -/
theorem read_blk2 (c : Dev nD) (t : Fin cfg0.N) (A : Buf (Elt Ideal) ((c : Thread nD τ).loc main_v18)) (y : S4000x1.Idx) :
    ((cfg0.win 2).blk t).view.read (Elt Ideal) A y = A (((cfg0.win 2).blk t).view.emb y) := rfl

/-- Entry p of the block of the count column at point t is entry 4000·t + p of the column. -/
theorem count_blk (c : Dev nD) (t : Fin cfg0.N) (p : Fin 4000) (hb : t.val * 4000 + p.val < 100000) :
    (iblk m c 2 t : Vec Ideal S4000x1 .f32) (ix2 p (0 : Fin 1))
      = (V m c main_v18 : S100000x1.Idx → EReal) (ix2 (⟨t.val * 4000 + p.val, hb⟩ : Fin 100000) (0 : Fin 1)) := by
  obtain ⟨-, -, -, -, e0, e1, -⟩ := idx_facts t
  have hidx : (((cfg0.win 2).blk t).view.emb (ix2 p (0 : Fin 1)) : S100000x1.Idx) = ix2 (⟨t.val * 4000 + p.val, hb⟩ : Fin 100000) (0 : Fin 1) :=
    funext fun a => Fin.ext (by
      match a with
      | ⟨0, _⟩ => show win0_2.index t (0 : Fin 2) * 4000 + 1 * p.val = t.val * 4000 + p.val; rw [e0]; omega
      | ⟨1, _⟩ => show win0_2.index t (1 : Fin 2) * 1 + 1 * 0 = 0; rw [e1])
  refine (congrFun (iblk2_eq m c t) (ix2 p (0 : Fin 1))).trans ?_
  refine (read_blk2 c t (V m c main_v18) (ix2 p (0 : Fin 1))).trans ?_
  rw [hidx]

/-- Window 3's block at point t is its array read through the block's rectangle. -/
theorem iblk3_eq (c : Dev nD) (t : Fin cfg0.N) :
    iblk m c 3 t = ((cfg0.win 3).blk t).view.read (Elt Ideal) (V m c main_arg2) := rfl

/-- Any array read through that rectangle, at an entry: the array at the entry's place in it. -/
theorem read_blk3 (c : Dev nD) (t : Fin cfg0.N) (A : Buf (Elt Ideal) ((c : Thread nD τ).loc main_arg2)) (y : S128x128.Idx) :
    ((cfg0.win 3).blk t).view.read (Elt Ideal) A y = A (((cfg0.win 3).blk t).view.emb y) := rfl

/-- The block of the first weight matrix at any point is the matrix. -/
theorem wl_blk (c : Dev nD) (t : Fin cfg0.N) :
    (iblk m c 3 t : Vec Ideal S128x128 .f32) = (V m c main_arg2 : S128x128.Idx → EReal) := by
  obtain ⟨-, -, -, -, -, -, e0, e1, -⟩ := idx_facts t
  funext z
  have hidx : (((cfg0.win 3).blk t).view.emb z : S128x128.Idx) = z :=
    funext fun a => Fin.ext (by
      match a with
      | ⟨0, _⟩ => show win0_3.index t (0 : Fin 2) * 128 + 1 * (z 0).val = (z 0).val; rw [e0]; omega
      | ⟨1, _⟩ => show win0_3.index t (1 : Fin 2) * 128 + 1 * (z 1).val = (z 1).val; rw [e1]; omega)
  refine (congrFun (iblk3_eq m c t) z).trans ?_
  refine (read_blk3 c t (V m c main_arg2) z).trans ?_
  rw [hidx]

/-- Window 4's block at point t is its array read through the block's rectangle. -/
theorem iblk4_eq (c : Dev nD) (t : Fin cfg0.N) :
    iblk m c 4 t = ((cfg0.win 4).blk t).view.read (Elt Ideal) (V m c main_v19) := rfl

/-- Any array read through that rectangle, at an entry: the array at the entry's place in it. -/
theorem read_blk4 (c : Dev nD) (t : Fin cfg0.N) (A : Buf (Elt Ideal) ((c : Thread nD τ).loc main_v19)) (y : S1x128.Idx) :
    ((cfg0.win 4).blk t).view.read (Elt Ideal) A y = A (((cfg0.win 4).blk t).view.emb y) := rfl

/-- The block of the bias row at any point is the row. -/
theorem bias_blk (c : Dev nD) (t : Fin cfg0.N) :
    (iblk m c 4 t : Vec Ideal S1x128 .f32) = (V m c main_v19 : S1x128.Idx → EReal) := by
  obtain ⟨-, -, -, -, -, -, -, -, e0, e1, -⟩ := idx_facts t
  funext z
  have hidx : (((cfg0.win 4).blk t).view.emb z : S1x128.Idx) = z :=
    funext fun a => Fin.ext (by
      match a with
      | ⟨0, _⟩ => show win0_4.index t (0 : Fin 2) * 1 + 1 * (z 0).val = (z 0).val; rw [e0]; omega
      | ⟨1, _⟩ => show win0_4.index t (1 : Fin 2) * 128 + 1 * (z 1).val = (z 1).val; rw [e1]; omega)
  refine (congrFun (iblk4_eq m c t) z).trans ?_
  refine (read_blk4 c t (V m c main_v19) z).trans ?_
  rw [hidx]

/-- Window 5's block at point t is its array read through the block's rectangle. -/
theorem iblk5_eq (c : Dev nD) (t : Fin cfg0.N) :
    iblk m c 5 t = ((cfg0.win 5).blk t).view.read (Elt Ideal) (V m c main_arg4) := rfl

/-- Any array read through that rectangle, at an entry: the array at the entry's place in it. -/
theorem read_blk5 (c : Dev nD) (t : Fin cfg0.N) (A : Buf (Elt Ideal) ((c : Thread nD τ).loc main_arg4)) (y : S128x128.Idx) :
    ((cfg0.win 5).blk t).view.read (Elt Ideal) A y = A (((cfg0.win 5).blk t).view.emb y) := rfl

/-- The block of the second weight matrix at any point is the matrix. -/
theorem wr_blk (c : Dev nD) (t : Fin cfg0.N) :
    (iblk m c 5 t : Vec Ideal S128x128 .f32) = (V m c main_arg4 : S128x128.Idx → EReal) := by
  obtain ⟨-, -, -, -, -, -, -, -, -, -, e0, e1, -⟩ := idx_facts t
  funext z
  have hidx : (((cfg0.win 5).blk t).view.emb z : S128x128.Idx) = z :=
    funext fun a => Fin.ext (by
      match a with
      | ⟨0, _⟩ => show win0_5.index t (0 : Fin 2) * 128 + 1 * (z 0).val = (z 0).val; rw [e0]; omega
      | ⟨1, _⟩ => show win0_5.index t (1 : Fin 2) * 128 + 1 * (z 1).val = (z 1).val; rw [e1]; omega)
  refine (congrFun (iblk5_eq m c t) z).trans ?_
  refine (read_blk5 c t (V m c main_arg4) z).trans ?_
  rw [hidx]

/-- An array read through the result's block at point t, at entry y, is the array at row 4000·t + y₀, column y₁: so a
    block of values that agrees with the array there is what the point writes back. -/
theorem result_blk (P : FVec Ideal S4000x128 .f32) (A : S100000x128.Idx → EReal) (t : Fin cfg0.N)
    (h : ∀ (y : S4000x128.Idx) (i : S100000x128.Idx), (i 0).val = t.val * 4000 + (y 0).val → (i 1).val = (y 1).val → P y = A i) :
    (cfg0.win 6).cut (grid0.coords t) P = ((cfg0.win 6).blk t).view.read (Elt Ideal) A := by
  obtain ⟨-, -, -, -, -, -, -, -, -, -, -, -, e0, e1⟩ := idx_facts t
  funext y
  show P ((cfg0.win 6).xinj (grid0.coords t) y) = A (((cfg0.win 6).blk t).view.emb y)
  refine h _ _ ?_ ?_
  · show win0_6.index t (0 : Fin 2) * 4000 + 1 * (y 0).val = t.val * 4000 + (y 0).val
    rw [e0]; omega
  · show win0_6.index t (1 : Fin 2) * 128 + 1 * (y 1).val = (y 1).val
    rw [e1]; omega

end Cert.KernelIdeal.Blocks

end
-- ==== Proof.KernelValue.lean ====
/-
  From row blocks to the whole array.

  Each of the 25 grid points writes back the layer of its block of rows; a row of the layer depends only on that row of
  the node arrays, so this is the same block of rows of the layer of the whole arrays. The 25 blocks cover all 100000
  rows, so after the run the result array is the layer of the arrays the launch found.
-/
import proofs.«103948_j23390391894413_2_alg».proof.Proof.Gen.KernelIdeal.Value
import proofs.«103948_j23390391894413_2_alg».proof.Proof.Payload
import proofs.«103948_j23390391894413_2_alg».proof.Proof.BlockReads
import proofs.«103948_j23390391894413_2_alg».proof.Proof.Spec
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.SageLayer Cert.KernelIdeal.RowBlock Cert.KernelIdeal.Blocks
open Idealize.ShloMosaic.Pipeline (Dat)

variable (m : (ℓ : Loc nD τ sig) → Buf (Elt Ideal) ℓ) (ρ : Dev nD → PrngReg)

/-- What the body leaves in the result's buffer is its one stored value, of the six blocks it loads whole. -/
theorem out_eq (x0 x1 : Vec Ideal S4000x128 .f32) (x2 : Vec Ideal S4000x1 .f32) (x3 : Vec Ideal S128x128 .f32)
    (x4 : Vec Ideal S1x128 .f32) (x5 : Vec Ideal S128x128 .f32) :
    out0_6 x0 x1 x2 x3 x4 x5 = k0_pay1 x0 x2 x1 x3 x5 x4 := by
  unfold out0_6
  rw [View.canon_unit_zero origin]
  simp only [View.ld_unit_zero (S := S4000x128) origin, View.ld_unit_zero (S := S4000x1) origin,
    View.ld_unit_zero (S := S128x128) origin, View.ld_unit_zero (S := S1x128) origin]

/-- Six blocks that are rows 4000·t … of three node arrays, and the whole of the weights and the bias row: the body's
    value at entry y of the block is the whole arrays' layer at row 4000·t + y₀, column y₁. -/
theorem pay_rows (S X : S100000x128.Idx → EReal) (C : S100000x1.Idx → EReal) (Wl Wr : S128x128.Idx → EReal)
    (B : S1x128.Idx → EReal)
    (v0 v9 : Vec Ideal S4000x128 .f32) (v2 : Vec Ideal S4000x1 .f32) (v11 v13 : Vec Ideal S128x128 .f32)
    (v15 : Vec Ideal S1x128 .f32) (t : Nat) (ht : t < 25)
    (h0 : ∀ (p : Fin 4000) (k : Fin 128),
      v0 (ix2 p k) = S (ix2 (⟨t * 4000 + p.val, by have := p.isLt; omega⟩ : Fin 100000) k))
    (h9 : ∀ (p : Fin 4000) (k : Fin 128),
      v9 (ix2 p k) = X (ix2 (⟨t * 4000 + p.val, by have := p.isLt; omega⟩ : Fin 100000) k))
    (h2 : ∀ (p : Fin 4000),
      v2 (ix2 p (0 : Fin 1)) = C (ix2 (⟨t * 4000 + p.val, by have := p.isLt; omega⟩ : Fin 100000) (0 : Fin 1)))
    (h11 : v11 = Wl) (h13 : v13 = Wr) (h15 : v15 = B)
    (y : S4000x128.Idx) (i : S100000x128.Idx) (hi0 : (i 0).val = t * 4000 + (y 0).val) (hi1 : (i 1).val = (y 1).val) :
    k0_pay1 v0 v2 v9 v11 v13 v15 y
      = outArr (n := 100000) S X (fun j => C (ix2 (j 0) (0 : Fin 1))) Wl Wr (fun j => B (ix2 (0 : Fin 1) (j 0))) i := by
  subst h11 h13 h15
  obtain ⟨p, q, rfl⟩ : ∃ (p : Fin 4000) (q : Fin 128), y = ix2 p q := ⟨y 0, y 1, eq_ix2 y⟩
  have hb : t * 4000 + p.val < 100000 := by have := p.isLt; omega
  obtain ⟨p', q', rfl⟩ : ∃ (p' : Fin 100000) (q' : Fin 128), i = ix2 p' q' := ⟨i 0, i 1, eq_ix2 i⟩
  have hp : p' = ⟨t * 4000 + p.val, hb⟩ := Fin.ext hi0
  have hq : q' = q := Fin.ext hi1
  subst hp hq
  rw [pay_apply, outArr_ix2]
  exact out_congr _ _ _ _ _ _ _ _ _ p _ (fun k => h0 p k) (fun k => h9 p k) (h2 p) q'

/-- The layer of the arrays the launch found, as one array over all nodes. -/
abbrev G (c : Dev nD) : S100000x128.Idx → EReal :=
  outArr (n := 100000) (V m c main_v13) (V m c main_arg0)
    (fun j => (V m c main_v18 : S100000x1.Idx → EReal) (ix2 (j 0) (0 : Fin 1)))
    (V m c main_arg2) (V m c main_arg4)
    (fun j => (V m c main_v19 : S1x128.Idx → EReal) (ix2 (0 : Fin 1) (j 0)))

/-- What point t writes back is block t of the layer of the arrays the launch found. -/
theorem flushed_eq (c : Dev nD) (t : Fin cfg0.N) :
    (dats m 0 c).flushed 6 t = ((cfg0.win 6).blk t).view.read (Elt Ideal) (G m c) := by
  refine (flushed6 m c t).trans ?_
  refine (congrArg ((cfg0.win 6).cut (grid0.coords t))
    (out_eq (iblk m c 0 t) (iblk m c 1 t) (iblk m c 2 t) (iblk m c 3 t) (iblk m c 4 t) (iblk m c 5 t))).trans ?_
  exact result_blk
    (k0_pay1 (iblk m c 0 t) (iblk m c 2 t) (iblk m c 1 t) (iblk m c 3 t) (iblk m c 5 t) (iblk m c 4 t)) (G m c) t
    (fun y i hi0 hi1 => pay_rows (V m c main_v13) (V m c main_arg0) (V m c main_v18) (V m c main_arg2) (V m c main_arg4)
      (V m c main_v19) (iblk m c 0 t) (iblk m c 1 t) (iblk m c 2 t) (iblk m c 3 t) (iblk m c 5 t) (iblk m c 4 t)
      t.val (point_lt t) (fun p k => summed_blk m c t p k _) (fun p k => feat_blk m c t p k _)
      (fun p => count_blk m c t p _) (wl_blk m c t) (wr_blk m c t) (bias_blk m c t) y i hi0 hi1)

/-- Every row of the result array lies in the block of the point ⌊row / 4000⌋. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, -, -, -, -, e60, e61⟩ := idx_facts t
  refine ⟨t, flush0_6 t, ?_⟩
  show i ∈ ((View.whole main_v20).slice (win0_6.rect t)).set
  rw [View.set_slice_whole, Rect.mem_set_unit]
  intro a
  match a with
  | ⟨0, _⟩ =>
    show win0_6.index t (0 : Fin 2) * 4000 ≤ (i 0).val ∧ (i 0).val < win0_6.index t (0 : Fin 2) * 4000 + 4000
    rw [e60, ht]; omega
  | ⟨1, _⟩ =>
    show win0_6.index t (1 : Fin 2) * 128 ≤ (i 1).val ∧ (i 1).val < win0_6.index t (1 : Fin 2) * 128 + 128
    rw [e61]; omega

/-- After the run the result array is the layer of the arrays the launch found. -/
theorem final (c : Dev nD) : (dats m 0 c).arrAt 6 cfg0.N = G m c :=
  (dats m 0 c).arrAt_eq_of_cover 6 (G m c) (fun t _ => flushed_eq m c t) cover

/-- The run, read: the result array at the layer of the arrays the launch found, the arguments unchanged. -/
theorem run : θ_run defs (onTc (τ := τ) (main (F := Ideal))) ⟨m, fun _ => 0, ρ⟩ fun r => ∀ c : Dev nD,
      r.2.mem ((c : Thread nD τ).loc main_v20) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.HostPrefix.lean ====
/-
  The arrays the kernel's row blocks are cut from, as the host forms them before the launch.

  The summed neighbour features and the neighbour counts are the same gather and the same two scatter-additions of the
  same two arguments as the reference's — the two programs spell these operations identically, so they are carried as
  the reference's own stages and never opened —; the counts are then viewed as one column and the bias as one row,
  which moves no entry.
-/
import proofs.«103948_j23390391894413_2_alg».proof.Proof.Gen.KernelIdeal.Frame
import proofs.«103948_j23390391894413_2_alg».proof.Proof.Gen.ReferenceIdeal.Read
import proofs.«103948_j23390391894413_2_alg».proof.Proof.LibUnitAxis
import Idealize.ShloMosaic.Lib.StableHlo.Run
import Idealize.ShloMosaic.Lib.ValueIdx
import Idealize.ShloMosaic.Lib.ValueLayout

noncomputable section

namespace Cert.KernelIdeal.Before

open Cert.KernelIdeal Cert.KernelIdeal.Gen Idealize.ShloMosaic Idealize.ShloMosaic.TcCoe Idealize.SL.Sem
open Idealize.ShloMosaic.StableHlo Idealize.ShloMosaic.ValueIdx Cert.Lib.UnitAxis

variable (m : (ℓ : Loc nD τ sig) → Buf (Elt Ideal) ℓ)

/-- The summed neighbour features the region finds are the reference's scatter-added stage of the same arguments. -/
theorem summed_eq (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [V, hostOps0]
  after_results
  rfl

/-- The neighbour counts the region finds are the reference's scatter-added counts, viewed as one column. -/
theorem counts_eq (c : Dev nD) :
    (V m c main_v18 : S100000x1.Idx → EReal)
      = shapeCast S100000x1 (Cert.ReferenceIdeal.Read.val_main_v17 (F := Ideal) (m ((c : Thread nD τ).loc main_arg1))) shapeCasts_S100000_S100000x1 := by
  dsimp only [V, hostOps0]
  after_results
  rfl

/-- The bias the region finds is the bias argument, viewed as one row. -/
theorem bias_eq (c : Dev nD) :
    (V m c main_v19 : S1x128.Idx → EReal)
      = shapeCast S1x128 (m ((c : Thread nD τ).loc main_arg3) : S128.Idx → EReal) shapeCasts_S128_S1x128 := by
  dsimp only [V, hostOps0]
  after_results
  rfl

/-- The count column at row p is the count of node p. -/
theorem counts_apply (c : Dev nD) (p : Fin 100000) :
    (V m c main_v18 : S100000x1.Idx → EReal) (ix2 p (0 : Fin 1))
      = Cert.ReferenceIdeal.Read.val_main_v17 (F := Ideal) (m ((c : Thread nD τ).loc main_arg1)) (ix1 p) := by
  rw [counts_eq]
  exact shapeCast_a_a1_apply _ _ p 0

/-- The bias row at column q is the bias of column q. -/
theorem bias_apply (c : Dev nD) (q : Fin 128) :
    (V m c main_v19 : S1x128.Idx → EReal) (ix2 (0 : Fin 1) q) = (m ((c : Thread nD τ).loc main_arg3) : S128.Idx → EReal) (ix1 q) := by
  rw [bias_eq]
  exact shapeCast_a_1a_apply _ _ 0 q

end Cert.KernelIdeal.Before

end
-- ==== Proof.KernelLayer.lean ====
/-
  The kernel's result as a function of the arguments alone.

  The arrays the launch finds are the arguments themselves (node features, the two weight matrices), the bias viewed as
  one row, and the two scatter-added arrays the host formed from the arguments, the counts viewed as one column. Read
  back through those views, the layer of the arrays the launch found is the layer of the summed neighbour features, the
  node features, the neighbour counts, the two weight matrices and the bias.
-/
import proofs.«103948_j23390391894413_2_alg».proof.Proof.KernelValue
import proofs.«103948_j23390391894413_2_alg».proof.Proof.HostPrefix
import proofs.«103948_j23390391894413_2_alg».proof.Proof.Spec

noncomputable section

namespace Cert.KernelIdeal.Layer

open Cert.KernelIdeal Cert.KernelIdeal.Gen Idealize.ShloMosaic Idealize.ShloMosaic.TcCoe Idealize.SL.Sem
open Idealize.ShloMosaic.ValueIdx Cert.SageLayer Cert.KernelIdeal.Whole Cert.KernelIdeal.Before

variable (m : (ℓ : Loc nD τ sig) → Buf (Elt Ideal) ℓ)

/-- The layer of equal arrays is the same array. -/
theorem outArr_congr {n : Nat} {S S' X X' : (⟨2, ![n, 128]⟩ : Shape).Idx → EReal} {C C' : (⟨1, ![n]⟩ : Shape).Idx → EReal}
    {Wl Wl' Wr Wr' : (⟨2, ![128, 128]⟩ : Shape).Idx → EReal} {B B' : (⟨1, ![128]⟩ : Shape).Idx → EReal}
    (hS : S = S') (hX : X = X') (hC : C = C') (hWl : Wl = Wl') (hWr : Wr = Wr') (hB : B = B') :
    outArr S X C Wl Wr B = outArr S' X' C' Wl' Wr' B' := by
  subst hS hX hC hWl hWr hB
  rfl

/-- The layer of the arrays the launch found is the layer of the two scatter-added arrays and the arguments. -/
theorem G_eq (c : Dev nD) :
    G m c = outArr (n := 100000)
      (Cert.ReferenceIdeal.Read.val_main_v13 (F := Ideal) (m ((c : Thread nD τ).loc main_arg0)) (m ((c : Thread nD τ).loc main_arg1)))
      (m ((c : Thread nD τ).loc main_arg0))
      (Cert.ReferenceIdeal.Read.val_main_v17 (F := Ideal) (m ((c : Thread nD τ).loc main_arg1)))
      (m ((c : Thread nD τ).loc main_arg2)) (m ((c : Thread nD τ).loc main_arg4)) (m ((c : Thread nD τ).loc main_arg3)) :=
  outArr_congr (summed_eq m c) (V_main_arg0 m c)
    (funext fun j => (counts_apply m c (j 0)).trans (congrArg _ (eq_ix1 j).symm))
    (V_main_arg2 m c) (V_main_arg4 m c)
    (funext fun j => (bias_apply m c (j 0)).trans (congrArg _ (eq_ix1 j).symm))

end Cert.KernelIdeal.Layer

end
-- ==== Proof.RefLayer.lean ====
/-
  The reference, stage by stage, is the layer of the arrays it is given.

  Its mean of the neighbours is the quotient of the two scatter-added arrays, the counts floored at one and spread along
  the row; its two products are taken against the transposed weight matrices, so entry (p, q) of each is
  Σ_k L[p, k] · W[q, k]; it adds the bias between the two products where the layer adds it last — addition of
  extended reals is commutative and associative, so the row is the same —; its sum of squares starts from the word of
  zero; and its final clamp is a maximum with the word of zero.
-/
import proofs.«103948_j23390391894413_2_alg».proof.Proof.Gen.ReferenceIdeal.Read
import proofs.«103948_j23390391894413_2_alg».proof.Proof.Spec
import Idealize.ShloMosaic.Lib.ValueIdx
import Idealize.ShloMosaic.PureOps.Ideal.Laws

noncomputable section

open scoped BigOperators

namespace Cert.ReferenceIdeal.Layer

open Cert.ReferenceIdeal Cert.ReferenceIdeal.Read Idealize.ShloMosaic Idealize.ShloMosaic.ValueIdx Cert.SageLayer

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-- The mean of the neighbours at (p, k): the summed features over the floored count of node p. -/
theorem mean_apply (p : Fin 100000) (k : Fin 128) :
    val_main_v22 (F := Ideal) x0 x1 (ix2 p k)
      = Ideal.div (val_main_v13 (F := Ideal) x0 x1 (ix2 p k)) (max (val_main_v17 (F := Ideal) x1 (ix1 p)) one) := by
  rw [val_main_v22_apply, val_main_v21_apply, val_main_v20_apply, val_main_v19_apply, val_main_v18_apply,
    val_main_cst_3_apply]
  have e : idx_main_v20 (idx_main_v21 (ix2 p k)) = ix1 p := funext fun a => Fin.ext (by match a with | ⟨0, _⟩ => rfl)
  rw [e]
  rfl

/-- The row before normalisation at (p, q). -/
theorem preact_apply (p : Fin 100000) (q : Fin 128) :
    val_main_v30 (F := Ideal) x0 x1 x2 x3 x4 (ix2 p q)
      = preact (n := 100000) (val_main_v13 (F := Ideal) x0 x1) x0 (val_main_v17 (F := Ideal) x1) x2 x4 x3 p q := by
  rw [val_main_v30_apply, val_main_v27_apply, val_main_v24_apply, val_main_v29_apply, val_main_v26_apply,
    val_main_v25_apply, Ideal.addf_def, Ideal.addf_def]
  unfold preact
  refine (add_right_comm _ _ _).trans ?_
  refine congrArg₂ (· + ·) (congrArg₂ (· + ·) (Finset.sum_congr rfl fun k _ => ?_) (Finset.sum_congr rfl fun k _ => ?_)) ?_
  · have el : lidx_main_v24 (ix2 p q) k = ix2 p k :=
      funext fun a => Fin.ext (by match a with | ⟨0, _⟩ => rfl | ⟨1, _⟩ => rfl)
    have er : idx_main_v23 (ridx_main_v24 (ix2 p q) k) = ix2 q k :=
      funext fun a => Fin.ext (by match a with | ⟨0, _⟩ => rfl | ⟨1, _⟩ => rfl)
    rw [el, mean_apply, val_main_v23_apply, er]
  · have el : lidx_main_v29 (ix2 p q) k = ix2 p k :=
      funext fun a => Fin.ext (by match a with | ⟨0, _⟩ => rfl | ⟨1, _⟩ => rfl)
    have er : idx_main_v28 (ridx_main_v29 (ix2 p q) k) = ix2 q k :=
      funext fun a => Fin.ext (by match a with | ⟨0, _⟩ => rfl | ⟨1, _⟩ => rfl)
    rw [el, val_main_v28_apply, er]
  · exact congrArg x3 (funext fun a => Fin.ext (by match a with | ⟨0, _⟩ => rfl))

/-- The sum of squares along row p. -/
theorem sumsq_apply (p : Fin 100000) :
    val_main_v32 (F := Ideal) x0 x1 x2 x3 x4 (ix1 p)
      = ∑ q' : Fin 128, preact (n := 100000) (val_main_v13 (F := Ideal) x0 x1) x0 (val_main_v17 (F := Ideal) x1) x2 x4 x3 p q'
          * preact (n := 100000) (val_main_v13 (F := Ideal) x0 x1) x0 (val_main_v17 (F := Ideal) x1) x2 x4 x3 p q' := by
  rw [val_main_v32_apply, val_main_cst_4_apply, Ideal.ofBits_def, Ideal.ofBits_zero_f32, zero_add]
  refine Finset.sum_congr rfl fun k _ => ?_
  have e : idx_main_v32 (ix1 p) k = ix2 p k :=
    funext fun a => Fin.ext (by match a with | ⟨0, _⟩ => rfl | ⟨1, _⟩ => rfl)
  rw [e, val_main_v31_apply, preact_apply]
  rfl

/-- The array the final clamp compares with holds the word of zero everywhere. -/
theorem clamp_word (j : S_.Idx) : val_main_call0_cst (F := Ideal) j = zero := rfl

theorem clamp_zero (i : S100000x128.Idx) : val_main_call0_v0 (F := Ideal) i = zero :=
  (val_main_call0_v0_apply (F := Ideal) i).trans (clamp_word _)

/-- The array the length is floored with holds the word of ε everywhere. -/
theorem floor_word (j : S_.Idx) : val_main_cst_5 (F := Ideal) j = eps := rfl

/-- The floored Euclidean length of row p, spread along the row. -/
theorem length_apply (p : Fin 100000) (q : Fin 128) :
    val_main_v37 (F := Ideal) x0 x1 x2 x3 x4 (ix2 p q)
      = max (Ideal.sqrt (val_main_v32 (F := Ideal) x0 x1 x2 x3 x4 (ix1 p))) eps := by
  have e : idx_main_v33 (idx_main_v37 (ix2 p q)) = ix1 p := funext fun a => Fin.ext (by match a with | ⟨0, _⟩ => rfl)
  refine (val_main_v37_apply x0 x1 x2 x3 x4 (ix2 p q)).trans ?_
  refine (val_main_v36_apply x0 x1 x2 x3 x4 _).trans ?_
  refine congrArg₂ max ?_ ?_
  · refine (val_main_v34_apply x0 x1 x2 x3 x4 _).trans ?_
    rw [Ideal.hostUnary_sqrt_def, val_main_v33_apply, e]
  · exact (val_main_v35_apply (F := Ideal) _).trans (floor_word _)

/-- The reference's result array is the layer of the two scatter-added arrays and the arguments. -/
theorem result_eq :
    val_main_v39 (F := Ideal) x0 x1 x2 x3 x4
      = outArr (n := 100000) (val_main_v13 (F := Ideal) x0 x1) x0 (val_main_v17 (F := Ideal) x1) x2 x4 x3 := by
  funext i
  obtain ⟨p, q, rfl⟩ : ∃ (p : Fin 100000) (q : Fin 128), i = ix2 p q := ⟨i 0, i 1, eq_ix2 i⟩
  refine (val_main_v39_apply x0 x1 x2 x3 x4 (ix2 p q)).trans ?_
  refine (congrArg₂ max ?_ (clamp_zero (ix2 p q))).trans (outArr_ix2 _ _ _ _ _ _ p q).symm
  refine (val_main_v38_apply x0 x1 x2 x3 x4 (ix2 p q)).trans ?_
  refine congrArg₂ Ideal.div (preact_apply x0 x1 x2 x3 x4 p q) ?_
  refine (length_apply x0 x1 x2 x3 x4 p q).trans ?_
  rw [sumsq_apply]

end Cert.ReferenceIdeal.Layer

end
-- ==== Proof.lean ====
/-
  A mean-aggregating graph layer, tiled over blocks of rows, against its plain array form: the two end with equal results
  on the extended reals.

  Both programs form the summed neighbour features and the neighbour counts by the same gather and the same two
  scatter-additions. The kernel then takes 25 blocks of 4000 rows; on each it divides the sums by the floored counts,
  multiplies by the two weight matrices, adds the bias, scales every row to unit Euclidean length (the length floored
  at ε) and clamps at zero. The reference does the same on the whole arrays, adding the bias between the two products
  instead of after them. A row of the result depends only on that row of the node arrays, so the blocks of the layer
  are the layer of the blocks; and the three terms of a row may be added in either order, addition of extended reals
  being commutative and associative. No finiteness of the inputs is used. The idealization rewrote nothing, so that
  conjunct is trivial; the three frames are the generated frame runs and the reference's generated run.
-/
import proofs.«103948_j23390391894413_2_alg».proof.Defs
import proofs.«103948_j23390391894413_2_alg».proof.Proof.Gen.Kernel
import proofs.«103948_j23390391894413_2_alg».proof.Proof.Gen.Kernel.Skeleton
import proofs.«103948_j23390391894413_2_alg».proof.Proof.Gen.Kernel.Launch
import proofs.«103948_j23390391894413_2_alg».proof.Proof.Gen.Kernel.Points
import proofs.«103948_j23390391894413_2_alg».proof.Proof.Gen.Kernel.Frame
import proofs.«103948_j23390391894413_2_alg».proof.Proof.Gen.KernelIdeal
import proofs.«103948_j23390391894413_2_alg».proof.Proof.Gen.KernelIdeal.Skeleton
import proofs.«103948_j23390391894413_2_alg».proof.Proof.Gen.KernelIdeal.Launch
import proofs.«103948_j23390391894413_2_alg».proof.Proof.Gen.KernelIdeal.Points
import proofs.«103948_j23390391894413_2_alg».proof.Proof.Gen.KernelIdeal.Frame
import proofs.«103948_j23390391894413_2_alg».proof.Proof.Gen.ReferenceIdeal
import proofs.«103948_j23390391894413_2_alg».proof.Proof.Gen.Pre_finite_inputs
import proofs.«103948_j23390391894413_2_alg».proof.Proof.Gen.KernelIdeal.Value
import proofs.«103948_j23390391894413_2_alg».proof.Proof.Gen.ReferenceIdeal.Run
import proofs.«103948_j23390391894413_2_alg».proof.Proof.Gen.ReferenceIdeal.Read
import proofs.«103948_j23390391894413_2_alg».proof.Proof.KernelLayer
import proofs.«103948_j23390391894413_2_alg».proof.Proof.RefLayer
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the layer of the two scatter-added arrays and the arguments: the kernel's
    block by block, the reference's stage by stage. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.Layer.result_eq, (hagree c).1, (hagree c).2.1,
    (hagree c).2.2.1, (hagree c).2.2.2.1, (hagree c).2.2.2.2]
  exact (Cert.KernelIdeal.Layer.G_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
